-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x64 : Shape := ⟨3, ![8, 32, 64]⟩
abbrev S_ : Shape := ⟨0, ![]⟩

class Facts : Prop where
  bcast_S_S8x32x64 : S_.BroadcastsInDim S8x32x64 (![] : Fin 0 → Fin S8x32x64.rank)
  reducesTo_S8x32x64_S_d0_1_2 : S8x32x64.ReducesTo [0, 1, 2] S_
  h_S_ : 0 < S_.numel

variable [Facts]

def fn {F : FTy → Type} [FloatOps F] (main_arg0 : FVec F S8x32x64 .f32) : IVec S_ 1 :=
  let main_v0 : FVec F S8x32x64 .f32 := Host.absf main_arg0
  let main_cst : FVec F S_ .f32 := constant S_ .f32 0x7F800000#32
  let main_v1 : FVec F S8x32x64 .f32 := broadcastInDim S8x32x64 ![] bcast_S_S8x32x64 main_cst
  let main_v2 : IVec S8x32x64 1 := cmpf .olt main_v0 main_v1
  let main_c : IVec S_ 1 := constantI S_ 1 1#1
  let main_v3 : IVec S_ 1 := (fun x v => Host.reduce IntOp.andi x v reducesTo_S8x32x64_S_d0_1_2 h_S_) main_v2 main_c
  main_v3
-- ==== Kernel.lean ====
abbrev S8x32x64 : Shape := ⟨3, ![8, 32, 64]⟩
abbrev S8x32x266304 : Shape := ⟨3, ![8, 32, 266304]⟩
abbrev S1x16x64 : Shape := ⟨3, ![1, 16, 64]⟩
abbrev S1x16x266304 : Shape := ⟨3, ![1, 16, 266304]⟩
abbrev S16x64 : Shape := ⟨2, ![16, 64]⟩
abbrev S16x64x1 : Shape := ⟨3, ![16, 64, 1]⟩
abbrev S16x1x64 : Shape := ⟨3, ![16, 1, 64]⟩
abbrev S16x64x64 : Shape := ⟨3, ![16, 64, 64]⟩
abbrev S16x4096 : Shape := ⟨2, ![16, 4096]⟩
abbrev S16x128 : Shape := ⟨2, ![16, 128]⟩
abbrev S1x16x128 : Shape := ⟨3, ![1, 16, 128]⟩
abbrev S16x3968 : Shape := ⟨2, ![16, 3968]⟩
abbrev S1x16x3968 : Shape := ⟨3, ![1, 16, 3968]⟩
abbrev S16x256x64 : Shape := ⟨3, ![16, 256, 64]⟩
abbrev S16x16384 : Shape := ⟨2, ![16, 16384]⟩
abbrev S16x256 : Shape := ⟨2, ![16, 256]⟩
abbrev S16x256x1 : Shape := ⟨3, ![16, 256, 1]⟩
abbrev S16x16256 : Shape := ⟨2, ![16, 16256]⟩
abbrev S1x16x16256 : Shape := ⟨3, ![1, 16, 16256]⟩
abbrev S16x16320 : Shape := ⟨2, ![16, 16320]⟩
abbrev S1x16x16320 : Shape := ⟨3, ![1, 16, 16320]⟩

abbrev nBuf : Space → Nat
  | .hbm => 2
  | .vmem => 4
  | .smem => 0
  | _ => 0

abbrev bufTy : (tb : Table) → Fin (tcTables nBuf tb) → BufTy
  | .hbm, ⟨0, _⟩ => ⟨S8x32x64, .f32⟩
  | .hbm, ⟨1, _⟩ => ⟨S8x32x266304, .f32⟩
  | .local _ .vmem, ⟨0, _⟩ => ⟨S1x16x64, .f32⟩
  | .local _ .vmem, ⟨1, _⟩ => ⟨S1x16x64, .f32⟩
  | .local _ .vmem, ⟨2, _⟩ => ⟨S1x16x266304, .f32⟩
  | .local _ .vmem, ⟨3, _⟩ => ⟨S1x16x266304, .f32⟩
  | _, _ => ⟨S8x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x266304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x64_S1x16x64_0_0_0 : ∀ a, (![0, 0, 0] : Fin 3 → Nat) a + S1x16x64.size a ≤ S1x16x64.size a
  h_S1x16x64 : 0 < S1x16x64.numel
  shapeCasts_S1x16x64_S16x64 : S1x16x64.ShapeCasts S16x64
  shapeCasts_S16x64_S16x64x1 : S16x64.ShapeCasts S16x64x1
  shapeCasts_S16x64_S16x1x64 : S16x64.ShapeCasts S16x1x64
  broadcasts_S16x64x1_S16x64x64 : S16x64x1.Broadcasts S16x64x64
  broadcasts_S16x1x64_S16x64x64 : S16x1x64.Broadcasts S16x64x64
  shapeCasts_S16x64x64_S16x4096 : S16x64x64.ShapeCasts S16x4096
  slices_S16x4096_o0_0_S16x64 : S16x4096.Slices ![0, 0] S16x64
  concatenates_S16x64_S16x64_S16x128_d1 : Shape.Concatenates [S16x64, S16x64] S16x128 1
  inb_S1x16x266304_S1x16x128_0_0_0 : ∀ a, (![0, 0, 0] : Fin 3 → Nat) a + S1x16x128.size a ≤ S1x16x266304.size a
  h_S1x16x128 : 0 < S1x16x128.numel
  shapeCasts_S1x16x128_S16x128 : S1x16x128.ShapeCasts S16x128
  shapeCasts_S16x128_S1x16x128 : S16x128.ShapeCasts S1x16x128
  slices_S16x4096_o0_64_S16x3968 : S16x4096.Slices ![0, 64] S16x3968
  inb_S1x16x266304_S1x16x3968_0_0_128 : ∀ a, (![0, 0, 128] : Fin 3 → Nat) a + S1x16x3968.size a ≤ S1x16x266304.size a
  h_S1x16x3968 : 0 < S1x16x3968.numel
  shapeCasts_S1x16x3968_S16x3968 : S1x16x3968.ShapeCasts S16x3968
  shapeCasts_S16x3968_S1x16x3968 : S16x3968.ShapeCasts S1x16x3968
  slices_S16x4096_o0_4032_S16x64 : S16x4096.Slices ![0, 4032] S16x64
  shapeCasts_S16x1x64_S16x1x64 : S16x1x64.ShapeCasts S16x1x64
  broadcasts_S16x1x64_S16x256x64 : S16x1x64.Broadcasts S16x256x64
  shapeCasts_S16x256x64_S16x16384 : S16x256x64.ShapeCasts S16x16384
  slices_S16x4096_o0_0_S16x256 : S16x4096.Slices ![0, 0] S16x256
  shapeCasts_S16x256_S16x256x1 : S16x256.ShapeCasts S16x256x1
  shapeCasts_S16x256x1_S16x256x1 : S16x256x1.ShapeCasts S16x256x1
  broadcasts_S16x256x1_S16x256x64 : S16x256x1.Broadcasts S16x256x64
  slices_S16x16384_o0_0_S16x64 : S16x16384.Slices ![0, 0] S16x64
  inb_S1x16x266304_S1x16x128_0_0_4096 : ∀ a, (![0, 0, 4096] : Fin 3 → Nat) a + S1x16x128.size a ≤ S1x16x266304.size a
  slices_S16x16384_o0_64_S16x16256 : S16x16384.Slices ![0, 64] S16x16256
  inb_S1x16x266304_S1x16x16256_0_0_4224 : ∀ a, (![0, 0, 4224] : Fin 3 → Nat) a + S1x16x16256.size a ≤ S1x16x266304.size a
  h_S1x16x16256 : 0 < S1x16x16256.numel
  shapeCasts_S1x16x16256_S16x16256 : S1x16x16256.ShapeCasts S16x16256
  shapeCasts_S16x16256_S1x16x16256 : S16x16256.ShapeCasts S1x16x16256
  slices_S16x16384_o0_16320_S16x64 : S16x16384.Slices ![0, 16320] S16x64
  slices_S16x4096_o0_256_S16x256 : S16x4096.Slices ![0, 256] S16x256
  inb_S1x16x266304_S1x16x128_0_0_20480 : ∀ a, (![0, 0, 20480] : Fin 3 → Nat) a + S1x16x128.size a ≤ S1x16x266304.size a
  inb_S1x16x266304_S1x16x16256_0_0_20608 : ∀ a, (![0, 0, 20608] : Fin 3 → Nat) a + S1x16x16256.size a ≤ S1x16x266304.size a
  slices_S16x4096_o0_512_S16x256 : S16x4096.Slices ![0, 512] S16x256
  inb_S1x16x266304_S1x16x128_0_0_36864 : ∀ a, (![0, 0, 36864] : Fin 3 → Nat) a + S1x16x128.size a ≤ S1x16x266304.size a
  inb_S1x16x266304_S1x16x16256_0_0_36992 : ∀ a, (![0, 0, 36992] : Fin 3 → Nat) a + S1x16x16256.size a ≤ S1x16x266304.size a
  slices_S16x4096_o0_768_S16x256 : S16x4096.Slices ![0, 768] S16x256
  inb_S1x16x266304_S1x16x128_0_0_53248 : ∀ a, (![0, 0, 53248] : Fin 3 → Nat) a + S1x16x128.size a ≤ S1x16x266304.size a
  inb_S1x16x266304_S1x16x16256_0_0_53376 : ∀ a, (![0, 0, 53376] : Fin 3 → Nat) a + S1x16x16256.size a ≤ S1x16x266304.size a
  slices_S16x4096_o0_1024_S16x256 : S16x4096.Slices ![0, 1024] S16x256
  inb_S1x16x266304_S1x16x128_0_0_69632 : ∀ a, (![0, 0, 69632] : Fin 3 → Nat) a + S1x16x128.size a ≤ S1x16x266304.size a
  inb_S1x16x266304_S1x16x16256_0_0_69760 : ∀ a, (![0, 0, 69760] : Fin 3 → Nat) a + S1x16x16256.size a ≤ S1x16x266304.size a
  slices_S16x4096_o0_1280_S16x256 : S16x4096.Slices ![0, 1280] S16x256
  inb_S1x16x266304_S1x16x128_0_0_86016 : ∀ a, (![0, 0, 86016] : Fin 3 → Nat) a + S1x16x128.size a ≤ S1x16x266304.size a
  inb_S1x16x266304_S1x16x16256_0_0_86144 : ∀ a, (![0, 0, 86144] : Fin 3 → Nat) a + S1x16x16256.size a ≤ S1x16x266304.size a
  slices_S16x4096_o0_1536_S16x256 : S16x4096.Slices ![0, 1536] S16x256
  inb_S1x16x266304_S1x16x128_0_0_102400 : ∀ a, (![0, 0, 102400] : Fin 3 → Nat) a + S1x16x128.size a ≤ S1x16x266304.size a
  inb_S1x16x266304_S1x16x16256_0_0_102528 : ∀ a, (![0, 0, 102528] : Fin 3 → Nat) a + S1x16x16256.size a ≤ S1x16x266304.size a
  slices_S16x4096_o0_1792_S16x256 : S16x4096.Slices ![0, 1792] S16x256
  inb_S1x16x266304_S1x16x128_0_0_118784 : ∀ a, (![0, 0, 118784] : Fin 3 → Nat) a + S1x16x128.size a ≤ S1x16x266304.size a
  inb_S1x16x266304_S1x16x16256_0_0_118912 : ∀ a, (![0, 0, 118912] : Fin 3 → Nat) a + S1x16x16256.size a ≤ S1x16x266304.size a
  slices_S16x4096_o0_2048_S16x256 : S16x4096.Slices ![0, 2048] S16x256
  inb_S1x16x266304_S1x16x128_0_0_135168 : ∀ a, (![0, 0, 135168] : Fin 3 → Nat) a + S1x16x128.size a ≤ S1x16x266304.size a
  inb_S1x16x266304_S1x16x16256_0_0_135296 : ∀ a, (![0, 0, 135296] : Fin 3 → Nat) a + S1x16x16256.size a ≤ S1x16x266304.size a
  slices_S16x4096_o0_2304_S16x256 : S16x4096.Slices ![0, 2304] S16x256
  inb_S1x16x266304_S1x16x128_0_0_151552 : ∀ a, (![0, 0, 151552] : Fin 3 → Nat) a + S1x16x128.size a ≤ S1x16x266304.size a
  inb_S1x16x266304_S1x16x16256_0_0_151680 : ∀ a, (![0, 0, 151680] : Fin 3 → Nat) a + S1x16x16256.size a ≤ S1x16x266304.size a
  slices_S16x4096_o0_2560_S16x256 : S16x4096.Slices ![0, 2560] S16x256
  inb_S1x16x266304_S1x16x128_0_0_167936 : ∀ a, (![0, 0, 167936] : Fin 3 → Nat) a + S1x16x128.size a ≤ S1x16x266304.size a
  inb_S1x16x266304_S1x16x16256_0_0_168064 : ∀ a, (![0, 0, 168064] : Fin 3 → Nat) a + S1x16x16256.size a ≤ S1x16x266304.size a
  slices_S16x4096_o0_2816_S16x256 : S16x4096.Slices ![0, 2816] S16x256
  inb_S1x16x266304_S1x16x128_0_0_184320 : ∀ a, (![0, 0, 184320] : Fin 3 → Nat) a + S1x16x128.size a ≤ S1x16x266304.size a
  inb_S1x16x266304_S1x16x16256_0_0_184448 : ∀ a, (![0, 0, 184448] : Fin 3 → Nat) a + S1x16x16256.size a ≤ S1x16x266304.size a
  slices_S16x4096_o0_3072_S16x256 : S16x4096.Slices ![0, 3072] S16x256
  inb_S1x16x266304_S1x16x128_0_0_200704 : ∀ a, (![0, 0, 200704] : Fin 3 → Nat) a + S1x16x128.size a ≤ S1x16x266304.size a
  inb_S1x16x266304_S1x16x16256_0_0_200832 : ∀ a, (![0, 0, 200832] : Fin 3 → Nat) a + S1x16x16256.size a ≤ S1x16x266304.size a
  slices_S16x4096_o0_3328_S16x256 : S16x4096.Slices ![0, 3328] S16x256
  inb_S1x16x266304_S1x16x128_0_0_217088 : ∀ a, (![0, 0, 217088] : Fin 3 → Nat) a + S1x16x128.size a ≤ S1x16x266304.size a
  inb_S1x16x266304_S1x16x16256_0_0_217216 : ∀ a, (![0, 0, 217216] : Fin 3 → Nat) a + S1x16x16256.size a ≤ S1x16x266304.size a
  slices_S16x4096_o0_3584_S16x256 : S16x4096.Slices ![0, 3584] S16x256
  inb_S1x16x266304_S1x16x128_0_0_233472 : ∀ a, (![0, 0, 233472] : Fin 3 → Nat) a + S1x16x128.size a ≤ S1x16x266304.size a
  inb_S1x16x266304_S1x16x16256_0_0_233600 : ∀ a, (![0, 0, 233600] : Fin 3 → Nat) a + S1x16x16256.size a ≤ S1x16x266304.size a
  slices_S16x4096_o0_3840_S16x256 : S16x4096.Slices ![0, 3840] S16x256
  inb_S1x16x266304_S1x16x128_0_0_249856 : ∀ a, (![0, 0, 249856] : Fin 3 → Nat) a + S1x16x128.size a ≤ S1x16x266304.size a
  slices_S16x16384_o0_64_S16x16320 : S16x16384.Slices ![0, 64] S16x16320
  inb_S1x16x266304_S1x16x16320_0_0_249984 : ∀ a, (![0, 0, 249984] : Fin 3 → Nat) a + S1x16x16320.size a ≤ S1x16x266304.size a
  h_S1x16x16320 : 0 < S1x16x16320.numel
  shapeCasts_S1x16x16320_S16x16320 : S1x16x16320.ShapeCasts S16x16320
  shapeCasts_S16x16320_S1x16x16320 : S16x16320.ShapeCasts S1x16x16320
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64.size a ≤ S8x32x64.size a
  hwx0_0 : ∀ i : grid0.Coords, EltTy.bits .f32 = 32 ∨ (Rect.block (s := S8x32x64) S1x16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x266304.size a ≤ S8x32x266304.size a
  hwx0_1 : ∀ i : grid0.Coords, EltTy.bits .f32 = 32 ∨ (Rect.block (s := S8x32x266304) S1x16x266304.size (cc0_transform_1 i) (hinb0_1 i)).WholeWords (EltTy.packing .f32)

variable [Facts₀]

abbrev win0_0 : Pipeline.Window sig grid0 :=
  Pipeline.Window.ofSpec (Memref.whole main_arg0) S1x16x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x266304.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x32x64 : Shape := ⟨3, ![8, 32, 64]⟩
abbrev S8x32x64x1 : Shape := ⟨4, ![8, 32, 64, 1]⟩
abbrev S8x32x1x64 : Shape := ⟨4, ![8, 32, 1, 64]⟩
abbrev S8x32x64x64 : Shape := ⟨4, ![8, 32, 64, 64]⟩
abbrev S8x32x4096 : Shape := ⟨3, ![8, 32, 4096]⟩
abbrev S8x32x4096x1 : Shape := ⟨4, ![8, 32, 4096, 1]⟩
abbrev S8x32x4096x64 : Shape := ⟨4, ![8, 32, 4096, 64]⟩
abbrev S8x32x262144 : Shape := ⟨3, ![8, 32, 262144]⟩
abbrev S8x32x266304 : Shape := ⟨3, ![8, 32, 266304]⟩

abbrev nBuf : Space → Nat
  | .hbm => 15
  | .vmem => 0
  | .smem => 0
  | _ => 0

abbrev bufTy : (tb : Table) → Fin (tcTables nBuf tb) → BufTy
  | .hbm, ⟨0, _⟩ => ⟨S8x32x64, .f32⟩
  | .hbm, ⟨1, _⟩ => ⟨S8x32x64, .f32⟩
  | .hbm, ⟨2, _⟩ => ⟨S8x32x64x1, .f32⟩
  | .hbm, ⟨3, _⟩ => ⟨S8x32x1x64, .f32⟩
  | .hbm, ⟨4, _⟩ => ⟨S8x32x64x64, .f32⟩
  | .hbm, ⟨5, _⟩ => ⟨S8x32x64x64, .f32⟩
  | .hbm, ⟨6, _⟩ => ⟨S8x32x64x64, .f32⟩
  | .hbm, ⟨7, _⟩ => ⟨S8x32x4096, .f32⟩
  | .hbm, ⟨8, _⟩ => ⟨S8x32x4096x1, .f32⟩
  | .hbm, ⟨9, _⟩ => ⟨S8x32x1x64, .f32⟩
  | .hbm, ⟨10, _⟩ => ⟨S8x32x4096x64, .f32⟩
  | .hbm, ⟨11, _⟩ => ⟨S8x32x4096x64, .f32⟩
  | .hbm, ⟨12, _⟩ => ⟨S8x32x4096x64, .f32⟩
  | .hbm, ⟨13, _⟩ => ⟨S8x32x262144, .f32⟩
  | .hbm, ⟨14, _⟩ => ⟨S8x32x266304, .f32⟩
  | _, _ => ⟨S8x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]

class Facts₀ : Prop where
  bcast_S8x32x64_S8x32x64x1_0_1_2 : S8x32x64.BroadcastsInDim S8x32x64x1 (![0, 1, 2] : Fin 3 → Fin S8x32x64x1.rank)
  bcast_S8x32x64_S8x32x1x64_0_1_3 : S8x32x64.BroadcastsInDim S8x32x1x64 (![0, 1, 3] : Fin 3 → Fin S8x32x1x64.rank)
  bcast_S8x32x64x1_S8x32x64x64_0_1_2_3 : S8x32x64x1.BroadcastsInDim S8x32x64x64 (![0, 1, 2, 3] : Fin 4 → Fin S8x32x64x64.rank)
  bcast_S8x32x1x64_S8x32x64x64_0_1_2_3 : S8x32x1x64.BroadcastsInDim S8x32x64x64 (![0, 1, 2, 3] : Fin 4 → Fin S8x32x64x64.rank)
  shapeCasts_S8x32x64x64_S8x32x4096 : S8x32x64x64.ShapeCasts S8x32x4096
  bcast_S8x32x4096_S8x32x4096x1_0_1_2 : S8x32x4096.BroadcastsInDim S8x32x4096x1 (![0, 1, 2] : Fin 3 → Fin S8x32x4096x1.rank)
  bcast_S8x32x4096x1_S8x32x4096x64_0_1_2_3 : S8x32x4096x1.BroadcastsInDim S8x32x4096x64 (![0, 1, 2, 3] : Fin 4 → Fin S8x32x4096x64.rank)
  bcast_S8x32x1x64_S8x32x4096x64_0_1_2_3 : S8x32x1x64.BroadcastsInDim S8x32x4096x64 (![0, 1, 2, 3] : Fin 4 → Fin S8x32x4096x64.rank)
  shapeCasts_S8x32x4096x64_S8x32x262144 : S8x32x4096x64.ShapeCasts S8x32x262144
  concatenates_S8x32x64_S8x32x4096_S8x32x262144_S8x32x266304_d2 : Shape.Concatenates [S8x32x64, S8x32x4096, S8x32x262144] S8x32x266304 2

variable [Facts₀]

class Facts : Prop extends Facts₀ where

variable [Facts]
-- ==== Proof.LibStackedCover.lean ====
/-
  Stores stacked along one axis cover the buffer. A buffer written by unit-stride stores each of which spans the whole
  buffer off one axis a, and whose intervals along a, read from the last store back to the first, run downward from the
  extent to 0 with no gap (each store's end is the offset of the store made after it), has every index under some store:
  the index's coordinate on a falls in exactly one of the consecutive intervals. The condition is a Boolean function of
  the stores' offsets and sizes alone, so it is decided by evaluation however long the axis is — the cost is one step per
  store, not per element or per block.
-/
import Idealize.ShloMosaic.Lib.Pipeline.FrameBody

noncomputable section

namespace Cert.LibStackedCover

open Idealize.ShloMosaic Idealize.ShloMosaic.View

variable {s : Shape} {e : EltTy} {Val : EltTy → Type}

/-- Whether the stores L (last made first) are stacked along axis a below top: each has unit strides, spans the whole
    shape off a, ends at the bound handed down (top for the head, the previous store's offset after it), and the last
    bound handed down is 0. -/
def stackedB (a : Fin s.rank) : List (Piece Val s e) → ℕ → Bool
  | [], top => top == 0
  | p :: L, top =>
    ((List.finRange s.rank).all fun b =>
        (p.1.stride b == 1) && ((b == a) || ((p.1.off b == 0) && (p.1.size b == s.size b))))
      && (p.1.off a + p.1.size a == top) && stackedB a L (p.1.off a)

/-- Stores stacked along a below top cover every index whose coordinate on a is below top. -/
theorem cover_of_stacked (a : Fin s.rank) : ∀ (L : List (Piece Val s e)) (top : ℕ), stackedB a L top = true →
    ∀ y : s.Idx, (y a).val < top → ∃ p ∈ L, y ∈ p.1.set
  | [], top, h, y, hy => by
    simp only [stackedB, beq_iff_eq] at h
    omega
  | p :: L, top, h, y, hy => by
    simp only [stackedB, Bool.and_eq_true, List.all_eq_true, List.mem_finRange, forall_const, beq_iff_eq,
      Bool.or_eq_true] at h
    obtain ⟨⟨hall, htop⟩, hrest⟩ := h
    by_cases hlo : p.1.off a ≤ (y a).val
    · refine ⟨p, List.mem_cons_self, p.1.mem_set.mpr fun b => ?_⟩
      obtain ⟨hs, hb⟩ := hall b
      by_cases hba : b = a
      · subst hba
        exact ⟨(y b).val - p.1.off b, by omega, by rw [hs]; omega⟩
      · rcases hb with hb | hb
        · exact absurd hb hba
        · exact ⟨(y b).val, by rw [hb.2]; exact (y b).isLt, by rw [hs, hb.1]; omega⟩
    · obtain ⟨q, hq, hyq⟩ := cover_of_stacked a L _ hrest y (by omega)
      exact ⟨q, List.mem_cons_of_mem _ hq, hyq⟩

/-- Stacked up to the axis's extent: every index is covered. -/
theorem cover_of_stacked_full (a : Fin s.rank) (L : List (Piece Val s e)) (h : stackedB a L (s.size a) = true) (y : s.Idx) :
    ∃ p ∈ L, y ∈ p.1.set :=
  cover_of_stacked a L _ h y (y a).isLt

end Cert.LibStackedCover

end
-- ==== Proof.Signature.lean ====
/-
  The signature features of one row. For a vector v of 64 extended reals the row of features has 64 + 64² + 64³ = 266304
  entries: the 64 entries of v, then the 4096 products v i * v j (position 64 i + j), then the 262144 products
  (v i * v j) * v k (position 64 (64 i + j) + k). A position of a level is a natural number; its digits in base 64 are
  the coordinates i, j, k, the last digit being the fastest. Everything here is a function of natural positions, total
  by reading a digit modulo 64, so that positions can be compared by linear arithmetic.
-/
import Idealize.ShloMosaic.PureOps.Ideal
import Idealize.ShloMosaic.Lib.ValueIdx

noncomputable section

namespace Cert.Signature

open Idealize.ShloMosaic Idealize.ShloMosaic.ValueIdx

/-- The last base-64 digit of a position, as a coordinate of a 64-vector. -/
def digit (n : ℕ) : Fin 64 := ⟨n % 64, Nat.mod_lt _ (by decide)⟩

theorem digit_val (n : ℕ) : (digit n).val = n % 64 := rfl

/-- Two positions with the same last digit name the same coordinate. -/
theorem digit_congr {n n' : ℕ} (h : n % 64 = n' % 64) : digit n = digit n' := Fin.ext h

/-- A coordinate is the digit of its own value. -/
theorem digit_of_fin (i : Fin 64) : digit i.val = i := Fin.ext (Nat.mod_eq_of_lt i.isLt)

/-- Level two at position n = 64 i + j: v i * v j. -/
def level2 (v : Fin 64 → EReal) (n : ℕ) : EReal := v (digit (n / 64)) * v (digit n)

/-- Level three at position n = 64 (64 i + j) + k: (v i * v j) * v k, level two at n / 64 times the last digit's entry. -/
def level3 (v : Fin 64 → EReal) (n : ℕ) : EReal := level2 v (n / 64) * v (digit n)

/-- The row of features at position j: level one on [0, 64), level two on [64, 4160), level three on [4160, 266304). -/
def features (v : Fin 64 → EReal) (j : ℕ) : EReal :=
  if j < 64 then v (digit j) else if j < 4160 then level2 v (j - 64) else level3 v (j - 4160)

theorem features_level1 (v : Fin 64 → EReal) {j : ℕ} (h : j < 64) : features v j = v (digit j) := if_pos h

theorem features_level2 (v : Fin 64 → EReal) {j : ℕ} (h1 : 64 ≤ j) (h2 : j < 4160) : features v j = level2 v (j - 64) := by
  unfold features; rw [if_neg (by omega), if_pos h2]

theorem features_level3 (v : Fin 64 → EReal) {j : ℕ} (h : 4160 ≤ j) : features v j = level3 v (j - 4160) := by
  unfold features; rw [if_neg (by omega), if_neg (by omega)]

/-- Level two depends on the position only through its two last digits. -/
theorem level2_congr (v : Fin 64 → EReal) {n n' : ℕ} (h1 : n / 64 % 64 = n' / 64 % 64) (h0 : n % 64 = n' % 64) :
    level2 v n = level2 v n' := by
  unfold level2; rw [digit_congr h1, digit_congr h0]

/-- The features of every row of an [8, 32, 64] array, with each row negated first: entry (b, s, j) is the feature at
    position j of the vector -x[b, s, ·]. -/
def ofArray (x : (⟨3, ![8, 32, 64]⟩ : Shape).Idx → EReal) : (⟨3, ![8, 32, 266304]⟩ : Shape).Idx → EReal :=
  fun i => features (fun k => -(x (ix3 (⟨(i 0).val, (i 0).isLt⟩ : Fin 8) (⟨(i 1).val, (i 1).isLt⟩ : Fin 32) k))) (i 2).val

/-- The same for one [1, 16, 64] block of rows: entry (0, r, j) is the feature at position j of -x[0, r, ·]. -/
def ofBlock (x : (⟨3, ![1, 16, 64]⟩ : Shape).Idx → EReal) : (⟨3, ![1, 16, 266304]⟩ : Shape).Idx → EReal :=
  fun y => features (fun k => -(x (ix3 (0 : Fin 1) (⟨(y 1).val, (y 1).isLt⟩ : Fin 16) k))) (y 2).val

end Cert.Signature

end
-- ==== Proof.LibOuterRows.lean ====
/-
  Rows of outer products on the vector unit, read at an index, for any extents and any element type.
  A matrix x : [a, b] laid as a column stack [a, b, 1] and broadcast to [a, b, c] holds x (r, p) at (r, p, q); laid as a row
  stack [a, 1, c] and broadcast to [a, b, c] it holds x (r, q) at (r, p, q); and a stack [a, b, c] flattened to [a, b * c]
  holds at (r, k) the entry (r, k / c, k % c): the last axis is the fastest. Together they read the flattened outer
  product of two rows, position k = c * p + q of row r being x (r, p) * y (r, q).
-/
import Idealize.ShloMosaic.PureOps.Ideal
import Idealize.ShloMosaic.Lib.ValueIdx
import Idealize.ShloMosaic.Lib.ValueLayout
import Idealize.ShloMosaic.Lib.Pipeline.Value

noncomputable section

namespace Cert.LibOuterRows

open Idealize.ShloMosaic Idealize.ShloMosaic.ValueIdx

variable {α : Type}

/-- An [a, b] matrix cast to [a, b, 1] reads, at (r, p, u), the operand at (r, p). -/
theorem shapeCast_ab_ab1_apply {a b : ℕ} (x : (⟨2, ![a, b]⟩ : Shape).Idx → α)
    (h : (⟨2, ![a, b]⟩ : Shape).ShapeCasts ⟨3, ![a, b, 1]⟩) (r : Fin a) (p : Fin b) (u : Fin 1) :
    shapeCast ⟨3, ![a, b, 1]⟩ x h (ix3 r p u) = x (ix2 r p) :=
  shapeCast_apply x h _ _ (by
    have hu : u.val = 0 := by omega
    rw [Shape.rowMajor_val_three, Shape.rowMajor_val_two]
    show r.val * b + p.val = (r.val * b + p.val) * 1 + u.val
    rw [hu, Nat.mul_one, Nat.add_zero])

/-- An [a, c] matrix cast to [a, 1, c] reads, at (r, u, q), the operand at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- A column stack [a, b, 1] broadcast to [a, b, c] reads, at (r, p, q), the operand at (r, p, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (p : Fin b) (q : Fin c) :
    broadcastTo ⟨3, ![a, b, c]⟩ x h (ix3 r p q) = x (ix3 r p (0 : Fin 1)) :=
  broadcastTo_apply x h _ _ (fun ax => by
    match ax with
    | ⟨0, _⟩ =>
      show r.val = if a = 1 then 0 else r.val
      have := r.isLt
      split <;> omega
    | ⟨1, _⟩ =>
      show p.val = if b = 1 then 0 else p.val
      have := p.isLt
      split <;> omega
    | ⟨2, _⟩ =>
      show 0 = if (1 : ℕ) = 1 then 0 else q.val
      rw [if_pos rfl])

/-- A row stack [a, 1, c] broadcast to [a, b, c] reads, at (r, p, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (p : Fin b) (q : Fin c) :
    broadcastTo ⟨3, ![a, b, c]⟩ x h (ix3 r p q) = x (ix3 r (0 : Fin 1) q) :=
  broadcastTo_apply x h _ _ (fun ax => by
    match ax with
    | ⟨0, _⟩ =>
      show r.val = if a = 1 then 0 else r.val
      have := r.isLt
      split <;> omega
    | ⟨1, _⟩ =>
      show 0 = if (1 : ℕ) = 1 then 0 else p.val
      rw [if_pos rfl]
    | ⟨2, _⟩ =>
      show q.val = if c = 1 then 0 else q.val
      have := q.isLt
      split <;> omega)

/-- A stack [a, b, c] flattened to [a, n], n = b * c, reads at (r, k) the operand at (r, k / c, k % c). -/
theorem shapeCast_abc_an_apply {a b c n : ℕ} (hn : n = b * c) (hc : 0 < c) (x : (⟨3, ![a, b, c]⟩ : Shape).Idx → α)
    (h : (⟨3, ![a, b, c]⟩ : Shape).ShapeCasts ⟨2, ![a, n]⟩) (r : Fin a) (k : Fin n) :
    shapeCast ⟨2, ![a, n]⟩ x h (ix2 r k)
      = x (ix3 r ⟨k.val / c, Nat.div_lt_of_lt_mul (by rw [Nat.mul_comm, ← hn]; exact k.isLt)⟩ ⟨k.val % c, Nat.mod_lt _ hc⟩) :=
  shapeCast_apply x h _ _ (by
    rw [Shape.rowMajor_val_three, Shape.rowMajor_val_two]
    show (r.val * b + k.val / c) * c + k.val % c = r.val * n + k.val
    generalize k.val = kv
    rw [hn, Nat.add_mul, Nat.add_assoc, Nat.div_add_mod', Nat.mul_assoc])

/-- THE FLATTENED OUTER PRODUCT OF TWO ROWS: x as columns times y as rows, flattened, holds x (r, k / c) * y (r, k % c)
    at (r, k). -/
theorem outer_apply {a b c n : ℕ} (hn : n = b * c) (hc : 0 < c)
    (x : FVec Ideal ⟨2, ![a, b]⟩ .f32) (y : FVec Ideal ⟨2, ![a, c]⟩ .f32)
    (h1 : (⟨2, ![a, b]⟩ : Shape).ShapeCasts ⟨3, ![a, b, 1]⟩) (h2 : (⟨3, ![a, b, 1]⟩ : Shape).Broadcasts ⟨3, ![a, b, c]⟩)
    (h3 : (⟨2, ![a, c]⟩ : Shape).ShapeCasts ⟨3, ![a, 1, c]⟩) (h4 : (⟨3, ![a, 1, c]⟩ : Shape).Broadcasts ⟨3, ![a, b, c]⟩)
    (h5 : (⟨3, ![a, b, c]⟩ : Shape).ShapeCasts ⟨2, ![a, n]⟩) (r : Fin a) (k : Fin n) :
    shapeCast ⟨2, ![a, n]⟩ (mulf (broadcastTo ⟨3, ![a, b, c]⟩ (shapeCast ⟨3, ![a, b, 1]⟩ x h1) h2)
        (broadcastTo ⟨3, ![a, b, c]⟩ (shapeCast ⟨3, ![a, 1, c]⟩ y h3) h4)) h5 (ix2 r k)
      = x (ix2 r ⟨k.val / c, Nat.div_lt_of_lt_mul (by rw [Nat.mul_comm, ← hn]; exact k.isLt)⟩)
        * y (ix2 r ⟨k.val % c, Nat.mod_lt _ hc⟩) := by
  rw [shapeCast_abc_an_apply hn hc, mulf_apply, broadcastTo_ab1_abc_apply, broadcastTo_a1c_abc_apply,
    shapeCast_ab_ab1_apply, shapeCast_ac_a1c_apply]

/-- A matrix broadcast as columns and flattened: position k of row r holds x (r, k / c). -/
theorem columns_flat_apply {a b c n : ℕ} (hn : n = b * c) (hc : 0 < c) (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (h5 : (⟨3, ![a, b, c]⟩ : Shape).ShapeCasts ⟨2, ![a, n]⟩) (r : Fin a) (k : Fin n) :
    shapeCast ⟨2, ![a, n]⟩ (broadcastTo ⟨3, ![a, b, c]⟩ (shapeCast ⟨3, ![a, b, 1]⟩ x h1) h2) h5 (ix2 r k)
      = x (ix2 r ⟨k.val / c, Nat.div_lt_of_lt_mul (by rw [Nat.mul_comm, ← hn]; exact k.isLt)⟩) := by
  rw [shapeCast_abc_an_apply hn hc, broadcastTo_ab1_abc_apply, shapeCast_ab_ab1_apply]

/-- A matrix broadcast as rows and flattened: position k of row r holds y (r, k % c). -/
theorem rows_flat_apply {a b c n : ℕ} (hn : n = b * c) (hc : 0 < c) (y : (⟨2, ![a, c]⟩ : Shape).Idx → α)
    (h3 : (⟨2, ![a, c]⟩ : Shape).ShapeCasts ⟨3, ![a, 1, c]⟩) (h4 : (⟨3, ![a, 1, c]⟩ : Shape).Broadcasts ⟨3, ![a, b, c]⟩)
    (h5 : (⟨3, ![a, b, c]⟩ : Shape).ShapeCasts ⟨2, ![a, n]⟩) (r : Fin a) (k : Fin n) :
    shapeCast ⟨2, ![a, n]⟩ (broadcastTo ⟨3, ![a, b, c]⟩ (shapeCast ⟨3, ![a, 1, c]⟩ y h3) h4) h5 (ix2 r k)
      = y (ix2 r ⟨k.val % c, Nat.mod_lt _ hc⟩) := by
  rw [shapeCast_abc_an_apply hn hc, broadcastTo_a1c_abc_apply, shapeCast_ac_a1c_apply]

end Cert.LibOuterRows

end
-- ==== Proof.LibRowWindows.lean ====
/-
  Matrices that hold a window of per-row sequences. Give every row r of a matrix a sequence f r : ℕ → α. A matrix A of
  width w READS the window at base when A (r, n) = f r (base + n) for every row r and column n < w. Windows compose:
  a column slice of a window from offset o is the window at base + o; two windows side by side, the second starting
  where the first ends, are one window; and a leading unit axis changes nothing. So a value assembled from slices and
  concatenations of windows of one family of sequences is again a window, and only its base has to be computed.
-/
import Idealize.ShloMosaic.PureOps.Ideal
import Idealize.ShloMosaic.Lib.ValueIdx
import Idealize.ShloMosaic.Lib.ValueLayout
import Idealize.ShloMosaic.Lib.Pipeline.Value

noncomputable section

namespace Cert.LibRowWindows

open Idealize.ShloMosaic Idealize.ShloMosaic.ValueIdx

variable {α : Type}

/-- The matrix A, of a rows and width w, holds in each row r the terms base, …, base + w - 1 of the sequence f r. -/
def Reads {a w : ℕ} (f : Fin a → ℕ → α) (base : ℕ) (A : (⟨2, ![a, w]⟩ : Shape).Idx → α) : Prop :=
  ∀ (r : Fin a) (n : Fin w), A (ix2 r n) = f r (base + n.val)

/-- A window may be stated at any spelling of its base. -/
theorem Reads.of_eq {a w : ℕ} {f : Fin a → ℕ → α} {base base' : ℕ} {A : (⟨2, ![a, w]⟩ : Shape).Idx → α}
    (h : Reads f base A) (e : base = base') : Reads f base' A := e ▸ h

/-- The columns from o on of a window are the window moved o along. -/
theorem Reads.slice {a w w' : ℕ} {f : Fin a → ℕ → α} {base : ℕ} {A : (⟨2, ![a, w]⟩ : Shape).Idx → α}
    (h : Reads f base A) (o : ℕ) (hs : (⟨2, ![a, w]⟩ : Shape).Slices ![0, o] ⟨2, ![a, w']⟩) :
    Reads f (base + o) (extractStridedSlice ⟨2, ![a, w']⟩ ![0, o] A hs) := fun r n => by
  rw [slice2_axis1_eq o A hs r n, h r _]
  show f r (base + (o + n.val)) = f r (base + o + n.val)
  rw [Nat.add_assoc]

/-- Two windows side by side, the second starting where the first ends, are one window. -/
theorem Reads.concat {a w₁ w₂ w : ℕ} {f : Fin a → ℕ → α} {base : ℕ} {A : (⟨2, ![a, w₁]⟩ : Shape).Idx → α}
    {B : (⟨2, ![a, w₂]⟩ : Shape).Idx → α} (hA : Reads f base A) (hB : Reads f (base + w₁) B)
    (hc : Shape.Concatenates [(⟨2, ![a, w₁]⟩ : Shape), ⟨2, ![a, w₂]⟩] ⟨2, ![a, w]⟩ (1 : Fin 2)) :
    Reads f base (concatenate ⟨2, ![a, w]⟩ (1 : Fin 2) [⟨⟨2, ![a, w₁]⟩, A⟩, ⟨⟨2, ![a, w₂]⟩, B⟩] hc) := fun r n => by
  have hw : w₁ + w₂ = w := by
    have := hc.2.2
    simpa using this
  by_cases hn : n.val < w₁
  · rw [concatenate_pair_apply_left (1 : Fin 2) A B hc (ix2 r n) rfl (ix2 r ⟨n.val, hn⟩)
      (fun b => match b with | ⟨0, _⟩ => rfl | ⟨1, _⟩ => rfl)]
    exact hA r ⟨n.val, hn⟩
  · have hn' : n.val - w₁ < w₂ := by have := n.isLt; omega
    rw [concatenate_pair_apply_right (1 : Fin 2) A B hc (ix2 r n) rfl rfl (ix2 r ⟨n.val - w₁, hn'⟩)
      (fun b hb => match b, hb with
        | ⟨0, _⟩, _ => rfl
        | ⟨1, _⟩, hb => absurd rfl hb)
      (by show n.val - w₁ + w₁ = n.val; omega)]
    rw [hB r ⟨n.val - w₁, hn'⟩]
    show f r (base + w₁ + (n.val - w₁)) = f r (base + n.val)
    congr 1
    omega

/-- A window under a leading unit axis: entry (u, r, n) of the cast to [1, a, w] is term base + n of row r's sequence. -/
theorem Reads.lift {a w : ℕ} {f : Fin a → ℕ → α} {base : ℕ} {A : (⟨2, ![a, w]⟩ : Shape).Idx → α}
    (h : Reads f base A) (hc : (⟨2, ![a, w]⟩ : Shape).ShapeCasts ⟨3, ![1, a, w]⟩) (u : Fin 1) (r : Fin a) (n : Fin w) :
    shapeCast ⟨3, ![1, a, w]⟩ A hc (ix3 u r n) = f r (base + n.val) := by
  rw [shapeCast_ab_1ab_apply A hc u r n]
  exact h r n

end Cert.LibRowWindows

end
-- ==== Proof.KernelRows.lean ====
/-
  The kernel's arithmetic, row by row, at the exact instance. The body negates its [16, 64] block of rows (as 0 - x) and
  forms, per row v, the 4096 products v i * v j (one flattened outer product) and, 256 at a time, the products
  (v i * v j) * v k of sixteen chunks (each a column broadcast of 256 level-two entries times the row tiled 256 times).
  Each of these values is a WINDOW of the row's feature sequence (Signature.features): the negated rows are positions
  [0, 64), the level-two matrix positions [64, 4160), chunk c positions [4160 + 16384 c, 4160 + 16384 (c + 1)).
-/
import proofs.«102466_j60258391163408_2_alg».proof.Proof.Gen.KernelIdeal.Skeleton
import proofs.«102466_j60258391163408_2_alg».proof.Proof.Signature
import proofs.«102466_j60258391163408_2_alg».proof.Proof.LibOuterRows
import proofs.«102466_j60258391163408_2_alg».proof.Proof.LibRowWindows
import Idealize.ShloMosaic.PureOps.Ideal.Laws

noncomputable section

namespace Cert.KernelIdeal.Rows

open Cert.KernelIdeal Cert.KernelIdeal.Gen Idealize.ShloMosaic Idealize.ShloMosaic.ValueIdx
open Cert.Signature Cert.LibRowWindows Cert.LibOuterRows

/-- Row r of the block, negated: the vector whose features the kernel writes into row r of its output block. -/
def row (x0 : FVec Ideal S1x16x64 .f32) (r : Fin 16) : Fin 64 → EReal := fun k => -(x0 (ix3 (0 : Fin 1) r k))

/-- The feature sequence of each of the block's sixteen rows. -/
def feat (x0 : FVec Ideal S1x16x64 .f32) : Fin 16 → ℕ → EReal := fun r j => features (row x0 r) j

/-- The body's first value is the block negated: 0 - x is -x on the extended reals. -/
theorem neg_apply (x0 : FVec Ideal S1x16x64 .f32) (r : Fin 16) (k : Fin 64) : k0_pay1 (F := Ideal) x0 (ix2 r k) = row x0 r k := by
  unfold k0_pay1
  refine (subf_apply _ _ _).trans ?_
  rw [broadcast_apply, shapeCast_1ab_ab_apply]
  show Ideal.ofBits .f32 0x00000000#32 - x0 (ix3 (0 : Fin 1) r k) = -(x0 (ix3 (0 : Fin 1) r k))
  rw [Ideal.ofBits_zero_f32, zero_sub]

/-- The negated rows are the first 64 positions of the feature sequences. -/
theorem neg_reads (x0 : FVec Ideal S1x16x64 .f32) : Reads (feat x0) 0 (k0_pay1 (F := Ideal) x0) := fun r k => by
  rw [neg_apply]
  show row x0 r k = features (row x0 r) (0 + k.val)
  rw [Nat.zero_add, features_level1 _ k.isLt, digit_of_fin]

/-- The level-two matrix at (r, n) is v (n / 64) * v (n % 64) for v the negated row r. -/
theorem level2_apply (x0 : FVec Ideal S1x16x64 .f32) (r : Fin 16) (n : Fin 4096) :
    k0_pay2 (F := Ideal) x0 (ix2 r n) = level2 (row x0 r) n.val := by
  unfold k0_pay2
  refine (outer_apply (a := 16) (b := 64) (c := 64) (n := 4096) rfl (by decide) _ _ _ _ _ _ _ r n).trans ?_
  rw [neg_apply, neg_apply]
  unfold level2
  have hn := n.isLt
  congr 2 <;> apply Fin.ext <;> simp only [digit_val] <;> omega

/-- The level-two matrix is positions [64, 4160) of the feature sequences. -/
theorem level2_reads (x0 : FVec Ideal S1x16x64 .f32) : Reads (feat x0) 64 (k0_pay2 (F := Ideal) x0) := fun r n => by
  rw [level2_apply]
  have hn := n.isLt
  show _ = features (row x0 r) (64 + n.val)
  rw [features_level2 _ (by omega) (by omega)]
  congr 1
  omega

/-- The row tiled 256 times: position n holds v (n % 64). -/
theorem tiled_apply (x0 : FVec Ideal S1x16x64 .f32) (r : Fin 16) (n : Fin 16384) :
    k0_pay5 (F := Ideal) x0 (ix2 r n) = row x0 r (digit n.val) := by
  unfold k0_pay5
  refine (shapeCast_abc_an_apply (a := 16) (b := 256) (c := 64) (n := 16384) rfl (by decide) _ _ r n).trans ?_
  refine (broadcastTo_a1c_abc_apply _ _ r _ _).trans ?_
  rw [shapeCast_self]
  refine (shapeCast_ac_a1c_apply _ _ r _ _).trans ?_
  exact neg_apply x0 r _

/-- A CHUNK: 256 consecutive level-two entries from o, each broadcast over 64 columns, times the tiled row. When f2
    is the level-two window and tv the tiled row, the chunk is positions [4160 + 64 o, 4160 + 64 o + 16384) of the
    feature sequences: entry n is level2 (o + n / 64) * v (n % 64), level three at 64 o + n. -/
theorem chunk_reads (x0 : FVec Ideal S1x16x64 .f32) (o : ℕ) (f2 : FVec Ideal S16x4096 .f32) (tv : FVec Ideal S16x16384 .f32)
    (hf2 : Reads (feat x0) 64 f2) (htv : ∀ (r : Fin 16) (n : Fin 16384), tv (ix2 r n) = row x0 r (digit n.val))
    (hs : S16x4096.Slices ![0, o] S16x256) (h1 : S16x256.ShapeCasts S16x256x1) (h2 : S16x256x1.ShapeCasts S16x256x1)
    (h3 : S16x256x1.Broadcasts S16x256x64) (h4 : S16x256x64.ShapeCasts S16x16384) :
    Reads (feat x0) (4160 + 64 * o)
      (mulf (shapeCast S16x16384 (broadcastTo S16x256x64 (shapeCast S16x256x1 (shapeCast S16x256x1
        (extractStridedSlice S16x256 ![0, o] f2 hs) h1) h2) h3) h4) tv) := fun r n => by
  have hn := n.isLt
  have ho : o + 256 ≤ 4096 := hs.2 1
  rw [mulf_apply, htv r n]
  rw [shapeCast_abc_an_apply (a := 16) (b := 256) (c := 64) (n := 16384) rfl (by decide)]
  rw [broadcastTo_ab1_abc_apply, shapeCast_self, shapeCast_ab_ab1_apply, slice2_axis1_eq, hf2 r _]
  show features (row x0 r) (64 + (o + n.val / 64)) * _ = features (row x0 r) (4160 + 64 * o + n.val)
  rw [features_level2 _ (by omega) (by omega), features_level3 _ (by omega)]
  unfold level3
  have e1 : 64 + (o + n.val / 64) - 64 = (4160 + 64 * o + n.val - 4160) / 64 := by omega
  have e2 : n.val % 64 = (4160 + 64 * o + n.val - 4160) % 64 := by omega
  rw [e1, digit_congr e2]

end Cert.KernelIdeal.Rows

end
-- ==== Proof.KernelBlock.lean ====
/-
  One block of the kernel's output is the features of its sixteen rows. The body fills its [1, 16, 266304] block by 34
  stores along the last axis. Each stored value is, under a leading unit axis, a window of the rows' feature sequences
  (KernelRows.lean), assembled from the negated rows, the level-two matrix and the sixteen chunks by column slices and
  by joining the 64-wide tail of one piece to the 64-wide head of the next; and each is stored at the position where its
  window starts. So every store writes the block's features at the indices it covers, and since the stores cover the
  block, the block IS the features (Signature.ofBlock).
-/
import proofs.«102466_j60258391163408_2_alg».proof.Proof.KernelIdealFrame
import proofs.«102466_j60258391163408_2_alg».proof.Proof.KernelRows
import Idealize.ShloMosaic.Lib.Pipeline.Value
import Idealize.ShloMosaic.Lib.Tactic

noncomputable section

namespace Cert.KernelIdeal.Block

open Cert.KernelIdeal Cert.KernelIdeal.Gen Cert.KernelIdeal.GenP Cert.KernelIdeal.Rows
open Idealize.ShloMosaic Idealize.ShloMosaic.TcCoe Idealize.ShloMosaic.Tactic Idealize.ShloMosaic.ValueIdx Idealize.SL.Sem
open Cert.Signature Cert.LibRowWindows

theorem hz3 : (![0, 0, 0] : Fin 3 → Nat) = fun _ => 0 := funext fun a => by fin_cases a <;> rfl

/-- The block's features at the index a store's local index (u, r, n) lands on, for a store at offset off of the last
    axis: position off + n of row r's feature sequence. -/
theorem ofBlock_emb (x0 : FVec Ideal S1x16x64 .f32) (off w : ℕ)
    (inb : ∀ a, (![0, 0, off] : Fin 3 → ℕ) a + (![1, 16, w] : Fin 3 → ℕ) a ≤ S1x16x266304.size a)
    (u : Fin 1) (r : Fin 16) (n : Fin w) :
    Signature.ofBlock x0 ((Rect.unit (s := S1x16x266304) ![0, 0, off] ![1, 16, w] inb).emb (ix3 u r n))
      = feat x0 r (off + n.val) := by
  show features (fun k => -(x0 (ix3 (0 : Fin 1) (⟨0 + 1 * r.val, _⟩ : Fin 16) k))) (off + 1 * n.val)
    = features (fun k => -(x0 (ix3 (0 : Fin 1) r k))) (off + n.val)
  simp only [Nat.one_mul, Nat.zero_add, Fin.eta]

/-- A window of the feature sequences at base off, put under a leading unit axis and stored at offset off of the last
    axis, writes the block's features at every index of the store. -/
theorem store_ok (x0 : FVec Ideal S1x16x64 .f32) {w off : ℕ} {A : FVec Ideal ⟨2, ![16, w]⟩ .f32} (h : Reads (feat x0) off A)
    (hc : (⟨2, ![16, w]⟩ : Shape).ShapeCasts ⟨3, ![1, 16, w]⟩)
    (inb : ∀ a, (![0, 0, off] : Fin 3 → ℕ) a + (![1, 16, w] : Fin 3 → ℕ) a ≤ S1x16x266304.size a) :
    ∀ x : (Rect.unit (s := S1x16x266304) ![0, 0, off] ![1, 16, w] inb).shape.Idx,
      shapeCast ⟨3, ![1, 16, w]⟩ A hc x
        = Signature.ofBlock x0 ((Rect.unit (s := S1x16x266304) ![0, 0, off] ![1, 16, w] inb).emb x) := by
  intro x
  obtain ⟨u, r, n, rfl⟩ : ∃ (u : Fin 1) (r : Fin 16) (n : Fin w), x = ix3 u r n := ⟨x 0, x 1, x 2, eq_ix3 x⟩
  rw [h.lift hc u r n, ofBlock_emb]

section Chunks

variable (x0 : FVec Ideal S1x16x64 .f32)

/-! The sixteen chunks: chunk c multiplies level-two entries 256 c … 256 c + 255 by the row, and is the window of the
    feature sequences at 4160 + 64 * (256 c). -/

theorem chunk0 : Reads (feat x0) (4160 + 64 * 0) (k0_pay6 (F := Ideal) x0) :=
  chunk_reads x0 0 _ _ (level2_reads x0) (tiled_apply x0) _ _ _ _ _
theorem chunk1 : Reads (feat x0) (4160 + 64 * 256) (k0_pay9 (F := Ideal) (k0_pay2 x0) (k0_pay5 x0)) :=
  chunk_reads x0 256 _ _ (level2_reads x0) (tiled_apply x0) _ _ _ _ _
theorem chunk2 : Reads (feat x0) (4160 + 64 * 512) (k0_pay12 (F := Ideal) (k0_pay2 x0) (k0_pay5 x0)) :=
  chunk_reads x0 512 _ _ (level2_reads x0) (tiled_apply x0) _ _ _ _ _
theorem chunk3 : Reads (feat x0) (4160 + 64 * 768) (k0_pay15 (F := Ideal) (k0_pay2 x0) (k0_pay5 x0)) :=
  chunk_reads x0 768 _ _ (level2_reads x0) (tiled_apply x0) _ _ _ _ _
theorem chunk4 : Reads (feat x0) (4160 + 64 * 1024) (k0_pay19 (F := Ideal) (k0_pay2 x0) (k0_pay5 x0)) :=
  chunk_reads x0 1024 _ _ (level2_reads x0) (tiled_apply x0) _ _ _ _ _
theorem chunk5 : Reads (feat x0) (4160 + 64 * 1280) (k0_pay22 (F := Ideal) (k0_pay2 x0) (k0_pay5 x0)) :=
  chunk_reads x0 1280 _ _ (level2_reads x0) (tiled_apply x0) _ _ _ _ _
theorem chunk6 : Reads (feat x0) (4160 + 64 * 1536) (k0_pay25 (F := Ideal) (k0_pay2 x0) (k0_pay5 x0)) :=
  chunk_reads x0 1536 _ _ (level2_reads x0) (tiled_apply x0) _ _ _ _ _
theorem chunk7 : Reads (feat x0) (4160 + 64 * 1792) (k0_pay28 (F := Ideal) (k0_pay2 x0) (k0_pay5 x0)) :=
  chunk_reads x0 1792 _ _ (level2_reads x0) (tiled_apply x0) _ _ _ _ _
theorem chunk8 : Reads (feat x0) (4160 + 64 * 2048) (k0_pay31 (F := Ideal) (k0_pay2 x0) (k0_pay5 x0)) :=
  chunk_reads x0 2048 _ _ (level2_reads x0) (tiled_apply x0) _ _ _ _ _
theorem chunk9 : Reads (feat x0) (4160 + 64 * 2304) (k0_pay35 (F := Ideal) (k0_pay2 x0) (k0_pay5 x0)) :=
  chunk_reads x0 2304 _ _ (level2_reads x0) (tiled_apply x0) _ _ _ _ _
theorem chunk10 : Reads (feat x0) (4160 + 64 * 2560) (k0_pay38 (F := Ideal) (k0_pay2 x0) (k0_pay5 x0)) :=
  chunk_reads x0 2560 _ _ (level2_reads x0) (tiled_apply x0) _ _ _ _ _
theorem chunk11 : Reads (feat x0) (4160 + 64 * 2816) (k0_pay41 (F := Ideal) (k0_pay2 x0) (k0_pay5 x0)) :=
  chunk_reads x0 2816 _ _ (level2_reads x0) (tiled_apply x0) _ _ _ _ _
theorem chunk12 : Reads (feat x0) (4160 + 64 * 3072) (k0_pay44 (F := Ideal) (k0_pay2 x0) (k0_pay5 x0)) :=
  chunk_reads x0 3072 _ _ (level2_reads x0) (tiled_apply x0) _ _ _ _ _
theorem chunk13 : Reads (feat x0) (4160 + 64 * 3328) (k0_pay47 (F := Ideal) (k0_pay2 x0) (k0_pay5 x0)) :=
  chunk_reads x0 3328 _ _ (level2_reads x0) (tiled_apply x0) _ _ _ _ _
theorem chunk14 : Reads (feat x0) (4160 + 64 * 3584) (k0_pay51 (F := Ideal) (k0_pay2 x0) (k0_pay5 x0)) :=
  chunk_reads x0 3584 _ _ (level2_reads x0) (tiled_apply x0) _ _ _ _ _
theorem chunk15 : Reads (feat x0) (4160 + 64 * 3840) (k0_pay54 (F := Ideal) (k0_pay2 x0) (k0_pay5 x0)) :=
  chunk_reads x0 3840 _ _ (level2_reads x0) (tiled_apply x0) _ _ _ _ _

end Chunks

/-- EVERY STORE of the body writes the block's features where it lands. Read from the last store back: the last chunk's
    bulk; then per chunk, from the fifteenth to the first, the bridge (the previous piece's last 64 columns joined to the
    chunk's first 64) and, below it, the previous chunk's bulk; the first bridge joins the level-two matrix's tail to
    chunk 0's head; then the level-two matrix's bulk; and first of all the negated rows joined to level two's head. -/
theorem pieces_ok (c : Dev nD) (i : grid0.Coords) (arg2 : Memref sig .tc .vmem S1x16x64 .f32) (harg2 : arg2.IsWhole)
    (arg3 : Memref sig .tc .vmem S1x16x266304 .f32) (harg3 : arg3.IsWhole) (x0 : FVec Ideal S1x16x64 .f32) :
    ∀ p ∈ (kernelRun0_A (F := Ideal) c i arg2 harg2 arg3 harg3 x0).1, ∀ x : p.1.shape.Idx,
      p.2 x = Signature.ofBlock x0 (p.1.emb x) := by
  unfold kernelRun0_A
  dsimp only
  sl_unfold_words
  simp only [View.readAt_eq_ld, harg2.read_unread, View.ld_unit_zero (S := S1x16x64) hz3]
  refine List.forall_mem_cons.2 ⟨store_ok x0 ((chunk15 x0).slice 64 slices_S16x16384_o0_64_S16x16320) shapeCasts_S16x16320_S1x16x16320 inb_S1x16x266304_S1x16x16320_0_0_249984, ?_⟩
  refine List.forall_mem_cons.2 ⟨store_ok x0 (((chunk14 x0).slice 16320 slices_S16x16384_o0_16320_S16x64).concat ((chunk15 x0).slice 0 slices_S16x16384_o0_0_S16x64) concatenates_S16x64_S16x64_S16x128_d1) shapeCasts_S16x128_S1x16x128 inb_S1x16x266304_S1x16x128_0_0_249856, ?_⟩
  refine List.forall_mem_cons.2 ⟨store_ok x0 ((chunk14 x0).slice 64 slices_S16x16384_o0_64_S16x16256) shapeCasts_S16x16256_S1x16x16256 inb_S1x16x266304_S1x16x16256_0_0_233600, ?_⟩
  refine List.forall_mem_cons.2 ⟨store_ok x0 (((chunk13 x0).slice 16320 slices_S16x16384_o0_16320_S16x64).concat ((chunk14 x0).slice 0 slices_S16x16384_o0_0_S16x64) concatenates_S16x64_S16x64_S16x128_d1) shapeCasts_S16x128_S1x16x128 inb_S1x16x266304_S1x16x128_0_0_233472, ?_⟩
  refine List.forall_mem_cons.2 ⟨store_ok x0 ((chunk13 x0).slice 64 slices_S16x16384_o0_64_S16x16256) shapeCasts_S16x16256_S1x16x16256 inb_S1x16x266304_S1x16x16256_0_0_217216, ?_⟩
  refine List.forall_mem_cons.2 ⟨store_ok x0 (((chunk12 x0).slice 16320 slices_S16x16384_o0_16320_S16x64).concat ((chunk13 x0).slice 0 slices_S16x16384_o0_0_S16x64) concatenates_S16x64_S16x64_S16x128_d1) shapeCasts_S16x128_S1x16x128 inb_S1x16x266304_S1x16x128_0_0_217088, ?_⟩
  refine List.forall_mem_cons.2 ⟨store_ok x0 ((chunk12 x0).slice 64 slices_S16x16384_o0_64_S16x16256) shapeCasts_S16x16256_S1x16x16256 inb_S1x16x266304_S1x16x16256_0_0_200832, ?_⟩
  refine List.forall_mem_cons.2 ⟨store_ok x0 (((chunk11 x0).slice 16320 slices_S16x16384_o0_16320_S16x64).concat ((chunk12 x0).slice 0 slices_S16x16384_o0_0_S16x64) concatenates_S16x64_S16x64_S16x128_d1) shapeCasts_S16x128_S1x16x128 inb_S1x16x266304_S1x16x128_0_0_200704, ?_⟩
  refine List.forall_mem_cons.2 ⟨store_ok x0 ((chunk11 x0).slice 64 slices_S16x16384_o0_64_S16x16256) shapeCasts_S16x16256_S1x16x16256 inb_S1x16x266304_S1x16x16256_0_0_184448, ?_⟩
  refine List.forall_mem_cons.2 ⟨store_ok x0 (((chunk10 x0).slice 16320 slices_S16x16384_o0_16320_S16x64).concat ((chunk11 x0).slice 0 slices_S16x16384_o0_0_S16x64) concatenates_S16x64_S16x64_S16x128_d1) shapeCasts_S16x128_S1x16x128 inb_S1x16x266304_S1x16x128_0_0_184320, ?_⟩
  refine List.forall_mem_cons.2 ⟨store_ok x0 ((chunk10 x0).slice 64 slices_S16x16384_o0_64_S16x16256) shapeCasts_S16x16256_S1x16x16256 inb_S1x16x266304_S1x16x16256_0_0_168064, ?_⟩
  refine List.forall_mem_cons.2 ⟨store_ok x0 (((chunk9 x0).slice 16320 slices_S16x16384_o0_16320_S16x64).concat ((chunk10 x0).slice 0 slices_S16x16384_o0_0_S16x64) concatenates_S16x64_S16x64_S16x128_d1) shapeCasts_S16x128_S1x16x128 inb_S1x16x266304_S1x16x128_0_0_167936, ?_⟩
  refine List.forall_mem_cons.2 ⟨store_ok x0 ((chunk9 x0).slice 64 slices_S16x16384_o0_64_S16x16256) shapeCasts_S16x16256_S1x16x16256 inb_S1x16x266304_S1x16x16256_0_0_151680, ?_⟩
  refine List.forall_mem_cons.2 ⟨store_ok x0 (((chunk8 x0).slice 16320 slices_S16x16384_o0_16320_S16x64).concat ((chunk9 x0).slice 0 slices_S16x16384_o0_0_S16x64) concatenates_S16x64_S16x64_S16x128_d1) shapeCasts_S16x128_S1x16x128 inb_S1x16x266304_S1x16x128_0_0_151552, ?_⟩
  refine List.forall_mem_cons.2 ⟨store_ok x0 ((chunk8 x0).slice 64 slices_S16x16384_o0_64_S16x16256) shapeCasts_S16x16256_S1x16x16256 inb_S1x16x266304_S1x16x16256_0_0_135296, ?_⟩
  refine List.forall_mem_cons.2 ⟨store_ok x0 (((chunk7 x0).slice 16320 slices_S16x16384_o0_16320_S16x64).concat ((chunk8 x0).slice 0 slices_S16x16384_o0_0_S16x64) concatenates_S16x64_S16x64_S16x128_d1) shapeCasts_S16x128_S1x16x128 inb_S1x16x266304_S1x16x128_0_0_135168, ?_⟩
  refine List.forall_mem_cons.2 ⟨store_ok x0 ((chunk7 x0).slice 64 slices_S16x16384_o0_64_S16x16256) shapeCasts_S16x16256_S1x16x16256 inb_S1x16x266304_S1x16x16256_0_0_118912, ?_⟩
  refine List.forall_mem_cons.2 ⟨store_ok x0 (((chunk6 x0).slice 16320 slices_S16x16384_o0_16320_S16x64).concat ((chunk7 x0).slice 0 slices_S16x16384_o0_0_S16x64) concatenates_S16x64_S16x64_S16x128_d1) shapeCasts_S16x128_S1x16x128 inb_S1x16x266304_S1x16x128_0_0_118784, ?_⟩
  refine List.forall_mem_cons.2 ⟨store_ok x0 ((chunk6 x0).slice 64 slices_S16x16384_o0_64_S16x16256) shapeCasts_S16x16256_S1x16x16256 inb_S1x16x266304_S1x16x16256_0_0_102528, ?_⟩
  refine List.forall_mem_cons.2 ⟨store_ok x0 (((chunk5 x0).slice 16320 slices_S16x16384_o0_16320_S16x64).concat ((chunk6 x0).slice 0 slices_S16x16384_o0_0_S16x64) concatenates_S16x64_S16x64_S16x128_d1) shapeCasts_S16x128_S1x16x128 inb_S1x16x266304_S1x16x128_0_0_102400, ?_⟩
  refine List.forall_mem_cons.2 ⟨store_ok x0 ((chunk5 x0).slice 64 slices_S16x16384_o0_64_S16x16256) shapeCasts_S16x16256_S1x16x16256 inb_S1x16x266304_S1x16x16256_0_0_86144, ?_⟩
  refine List.forall_mem_cons.2 ⟨store_ok x0 (((chunk4 x0).slice 16320 slices_S16x16384_o0_16320_S16x64).concat ((chunk5 x0).slice 0 slices_S16x16384_o0_0_S16x64) concatenates_S16x64_S16x64_S16x128_d1) shapeCasts_S16x128_S1x16x128 inb_S1x16x266304_S1x16x128_0_0_86016, ?_⟩
  refine List.forall_mem_cons.2 ⟨store_ok x0 ((chunk4 x0).slice 64 slices_S16x16384_o0_64_S16x16256) shapeCasts_S16x16256_S1x16x16256 inb_S1x16x266304_S1x16x16256_0_0_69760, ?_⟩
  refine List.forall_mem_cons.2 ⟨store_ok x0 (((chunk3 x0).slice 16320 slices_S16x16384_o0_16320_S16x64).concat ((chunk4 x0).slice 0 slices_S16x16384_o0_0_S16x64) concatenates_S16x64_S16x64_S16x128_d1) shapeCasts_S16x128_S1x16x128 inb_S1x16x266304_S1x16x128_0_0_69632, ?_⟩
  refine List.forall_mem_cons.2 ⟨store_ok x0 ((chunk3 x0).slice 64 slices_S16x16384_o0_64_S16x16256) shapeCasts_S16x16256_S1x16x16256 inb_S1x16x266304_S1x16x16256_0_0_53376, ?_⟩
  refine List.forall_mem_cons.2 ⟨store_ok x0 (((chunk2 x0).slice 16320 slices_S16x16384_o0_16320_S16x64).concat ((chunk3 x0).slice 0 slices_S16x16384_o0_0_S16x64) concatenates_S16x64_S16x64_S16x128_d1) shapeCasts_S16x128_S1x16x128 inb_S1x16x266304_S1x16x128_0_0_53248, ?_⟩
  refine List.forall_mem_cons.2 ⟨store_ok x0 ((chunk2 x0).slice 64 slices_S16x16384_o0_64_S16x16256) shapeCasts_S16x16256_S1x16x16256 inb_S1x16x266304_S1x16x16256_0_0_36992, ?_⟩
  refine List.forall_mem_cons.2 ⟨store_ok x0 (((chunk1 x0).slice 16320 slices_S16x16384_o0_16320_S16x64).concat ((chunk2 x0).slice 0 slices_S16x16384_o0_0_S16x64) concatenates_S16x64_S16x64_S16x128_d1) shapeCasts_S16x128_S1x16x128 inb_S1x16x266304_S1x16x128_0_0_36864, ?_⟩
  refine List.forall_mem_cons.2 ⟨store_ok x0 ((chunk1 x0).slice 64 slices_S16x16384_o0_64_S16x16256) shapeCasts_S16x16256_S1x16x16256 inb_S1x16x266304_S1x16x16256_0_0_20608, ?_⟩
  refine List.forall_mem_cons.2 ⟨store_ok x0 (((chunk0 x0).slice 16320 slices_S16x16384_o0_16320_S16x64).concat ((chunk1 x0).slice 0 slices_S16x16384_o0_0_S16x64) concatenates_S16x64_S16x64_S16x128_d1) shapeCasts_S16x128_S1x16x128 inb_S1x16x266304_S1x16x128_0_0_20480, ?_⟩
  refine List.forall_mem_cons.2 ⟨store_ok x0 ((chunk0 x0).slice 64 slices_S16x16384_o0_64_S16x16256) shapeCasts_S16x16256_S1x16x16256 inb_S1x16x266304_S1x16x16256_0_0_4224, ?_⟩
  refine List.forall_mem_cons.2 ⟨store_ok x0 (((level2_reads x0).slice 4032 slices_S16x4096_o0_4032_S16x64).concat ((chunk0 x0).slice 0 slices_S16x16384_o0_0_S16x64) concatenates_S16x64_S16x64_S16x128_d1) shapeCasts_S16x128_S1x16x128 inb_S1x16x266304_S1x16x128_0_0_4096, ?_⟩
  refine List.forall_mem_cons.2 ⟨store_ok x0 ((level2_reads x0).slice 64 slices_S16x4096_o0_64_S16x3968) shapeCasts_S16x3968_S1x16x3968 inb_S1x16x266304_S1x16x3968_0_0_128, ?_⟩
  refine List.forall_mem_cons.2 ⟨store_ok x0 ((neg_reads x0).concat ((level2_reads x0).slice 0 slices_S16x4096_o0_0_S16x64) concatenates_S16x64_S16x64_S16x128_d1) shapeCasts_S16x128_S1x16x128 inb_S1x16x266304_S1x16x128_0_0_0, ?_⟩
  exact fun _ h => absurd h List.not_mem_nil

/-- THE BLOCK: what the body leaves in its output's staging buffer is the features of the input block's rows. -/
theorem block_eq (c : Dev nD) (i : grid0.Coords) (arg2 : Memref sig .tc .vmem S1x16x64 .f32) (harg2 : arg2.IsWhole)
    (arg3 : Memref sig .tc .vmem S1x16x266304 .f32) (harg3 : arg3.IsWhole) (x0 : FVec Ideal S1x16x64 .f32) :
    out0_A_1 (F := Ideal) c i arg2 harg2 arg3 harg3 x0 = Signature.ofBlock x0 := by
  funext y
  have h1 : out0_A_1 (F := Ideal) c i arg2 harg2 arg3 harg3 x0 y
      = View.canon (kernelRun0_A (F := Ideal) c i arg2 harg2 arg3 harg3 x0).1 y :=
    View.read_writes_junk_apply_eq_canon VO0_1 y (kernelRun0_A (F := Ideal) c i arg2 harg2 arg3 harg3 x0).1
  have hcov := cover0_A_1 (F := Ideal) c i arg2 harg2 arg3 harg3 x0 y
  have hpieces := pieces_ok c i arg2 harg2 arg3 harg3 x0
  rw [h1]
  generalize (kernelRun0_A (F := Ideal) c i arg2 harg2 arg3 harg3 x0).1 = L at hcov hpieces ⊢
  exact View.canon_apply_of_pieces (Signature.ofBlock x0) L hpieces y hcov

end Cert.KernelIdeal.Block

end
-- ==== Proof.KernelValue.lean ====
/-
  The kernel's result array is the features of every row of its argument. The grid has 8 × 2 points; point (b, h) stages
  rows 16 h … 16 h + 15 of batch b of the argument and writes back the same rows of the result, whole along the last
  axis. What a point writes back is the features of its input block (KernelBlock.lean), and an entry of the input block is
  the argument's entry at the same batch, row and column; so the block written back is the block of the features of
  the whole argument (Signature.ofArray). The sixteen blocks cover the result array, so the array ends at the features.
-/
import proofs.«102466_j60258391163408_2_alg».proof.Proof.KernelBlock
import Idealize.ShloMosaic.Lib.Pipeline.Value

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Signature

variable (m : (ℓ : Loc nD τ sig) → Buf (Elt Ideal) ℓ) (ρ : Dev nD → PrngReg)

/-- The two windows' index maps, decided over the sixteen points: the input's block index is the output's on the batch
    and row-block axes, both are 0 on the last axis, and the output's stay in range. -/
theorem idx_facts : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0
    ∧ win0_1.index t (0 : Fin 3) ≤ 7 ∧ win0_1.index t (1 : Fin 3) ≤ 1 :=
  (by decide +kernel : ∀ t : Fin grid0.N, _)

/-- Every (batch, row-block) pair is some point's output block. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- WHAT POINT t WRITES BACK is block t of the features of the argument as the region finds it. -/
theorem flushed_eq (c : Dev nD) (t : Fin cfg0.N) :
    (dats m 0 c).flushed 1 t = ((cfg0.win 1).blk t).view.read (Elt Ideal) (Signature.ofArray (V m c main_arg0)) := by
  show (cfg0.win 1).cut (grid0.coords t) ((dats m 0 c).after 1 t) = _
  rw [after0_1]
  unfold outsAt0
  rw [Block.block_eq]
  obtain ⟨e0, e1, e2, e3, e4, e5⟩ := idx_facts t
  funext j
  have hj0 : (j 0).val < 1 := (j 0).isLt
  have hj1 : (j 1).val < 16 := (j 1).isLt
  have hj2 : (j 2).val < 266304 := (j 2).isLt
  show Signature.ofBlock (iblk m c 0 t) j = Signature.ofArray (V m c main_arg0) (((cfg0.win 1).blk t).view.emb j)
  have hn : (((cfg0.win 1).blk t).view.emb j 2).val = (j 2).val := by
    show win0_1.index t (2 : Fin 3) * 266304 + 1 * (j 2).val = (j 2).val
    omega
  have hrow : ∀ k : Fin 64, iblk m c 0 t (ix3 (0 : Fin 1) (⟨(j 1).val, hj1⟩ : Fin 16) k)
      = V m c main_arg0 (ix3 (⟨(((cfg0.win 1).blk t).view.emb j 0).val, (((cfg0.win 1).blk t).view.emb j 0).isLt⟩ : Fin 8)
          (⟨(((cfg0.win 1).blk t).view.emb j 1).val, (((cfg0.win 1).blk t).view.emb j 1).isLt⟩ : Fin 32) k) := fun k => by
    show V m c main_arg0 (((cfg0.win 0).blk t).view.emb (ix3 (0 : Fin 1) (⟨(j 1).val, hj1⟩ : Fin 16) k)) = _
    refine congrArg _ (funext fun a => Fin.ext ?_)
    match a with
    | ⟨0, _⟩ =>
      show win0_0.index t (0 : Fin 3) * 1 + 1 * 0 = win0_1.index t (0 : Fin 3) * 1 + 1 * (j 0).val
      omega
    | ⟨1, _⟩ =>
      show win0_0.index t (1 : Fin 3) * 16 + 1 * (j 1).val = win0_1.index t (1 : Fin 3) * 16 + 1 * (j 1).val
      omega
    | ⟨2, _⟩ =>
      show win0_0.index t (2 : Fin 3) * 64 + 1 * k.val = k.val
      omega
  unfold Signature.ofBlock Signature.ofArray
  rw [hn]
  refine congrArg (fun v => features v (j 2).val) (funext fun k => ?_)
  exact congrArg Neg.neg (hrow k)

/-- An index of the result array is in point t's block iff each coordinate is in the block's range on its axis. -/
theorem mem_blk (t : Fin cfg0.N) (i : S8x32x266304.Idx) :
    i ∈ ((cfg0.win 1).blk t).view.set ↔ ∀ a : Fin 3, win0_1.index t a * S1x16x266304.size a ≤ (i a).val
      ∧ (i a).val < win0_1.index t a * S1x16x266304.size a + S1x16x266304.size a := by
  show i ∈ ((View.whole main_v0).slice (win0_1.rect t)).set ↔ _
  rw [View.set_slice_whole, Rect.mem_set_unit]
  exact Iff.rfl

/-- Every index (b, s, j) of the result array is in the block of the point with block index (b, s / 16, 0). -/
theorem cover (i : S8x32x266304.Idx) : ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 266304 := (i 2).isLt
  obtain ⟨t, ht⟩ := idx_onto ⟨(i 0).val, hi0⟩ ⟨(i 1).val / 16, by omega⟩
  have q0 : win0_1.index t (0 : Fin 3) = (i 0).val := congrFun ht 0
  have q1 : win0_1.index t (1 : Fin 3) = (i 1).val / 16 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 16 ≤ (i 1).val ∧ (i 1).val < win0_1.index t (1 : Fin 3) * 16 + 16
    omega
  | ⟨2, _⟩ =>
    show win0_1.index t (2 : Fin 3) * 266304 ≤ (i 2).val ∧ (i 2).val < win0_1.index t (2 : Fin 3) * 266304 + 266304
    omega

/-- THE RESULT ARRAY after the run: the features of every negated row of the argument. -/
theorem final (c : Dev nD) :
    (dats m 0 c).arrAt 1 cfg0.N = Signature.ofArray (m ((c : Thread nD τ).loc main_arg0)) :=
  (dats m 0 c).arrAt_eq_of_cover 1 (Signature.ofArray (V m c main_arg0)) (fun t _ => flushed_eq m c t) cover

/-- The frame run re-posted: the result array at the features of the argument, the argument unchanged. -/
theorem run : θ_run defs (onTc (τ := τ) (main (F := Ideal))) ⟨m, fun _ => 0, ρ⟩ fun r => ∀ c : Dev nD,
      r.2.mem ((c : Thread nD τ).loc main_v0) = Signature.ofArray (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Hand

end
-- ==== Proof.ReferenceRows.lean ====
/-
  The reference computes the same features. It negates the [8, 32, 64] array, forms for every row (b, s) the outer
  product of the row with itself flattened to 4096 entries, then the outer product of that with the row flattened to
  262144 entries, and joins the three along the last axis. Read at an index (b, s, j): below 64 it is the negated row's
  entry j; on [64, 4160) it is entry n = j - 64 of the first product, v (n / 64) * v (n % 64); from 4160 on it is entry
  n = j - 4160 of the second, (entry n / 64 of the first) * v (n % 64) — the feature at position j of the negated row
  (Signature.ofArray).
-/
import proofs.«102466_j60258391163408_2_alg».proof.Proof.Gen.ReferenceIdeal.Read
import proofs.«102466_j60258391163408_2_alg».proof.Proof.Signature
import Idealize.ShloMosaic.PureOps.Ideal.Laws
import Idealize.ShloMosaic.Lib.Pipeline.Value

noncomputable section

namespace Cert.ReferenceIdeal.Rows

open Cert.ReferenceIdeal Cert.ReferenceIdeal.Gen Cert.ReferenceIdeal.Read
open Idealize.ShloMosaic Idealize.ShloMosaic.ValueIdx Cert.Signature

/-- Row (b, s) of the argument, negated. -/
def row (x : FVec Ideal S8x32x64 .f32) (b : Fin 8) (s : Fin 32) : Fin 64 → EReal := fun k => -(x (ix3 b s k))

/-- The negated array at (b, s, k). -/
theorem neg_apply (x : FVec Ideal S8x32x64 .f32) (b : Fin 8) (s : Fin 32) (k : Fin 64) :
    val_main_v0 (F := Ideal) x (ix3 b s k) = row x b s k := rfl

/-- The first product, flattened, at (b, s, n): v (n / 64) * v (n % 64) for v the negated row (b, s). -/
theorem level2_apply (x : FVec Ideal S8x32x64 .f32) (b : Fin 8) (s : Fin 32) (n : Fin 4096) :
    val_main_v6 (F := Ideal) x (ix3 b s n) = level2 (row x b s) n.val := by
  have hb := b.isLt
  have hs := s.isLt
  have hn := n.isLt
  have e1 : idx_main_v1 (idx_main_v3 (idx_main_v6 (ix3 b s n))) = ix3 b s (digit (n.val / 64)) := by
    funext a
    apply Fin.ext
    match a with
    | ⟨0, _⟩ => show ((b.val * 32 + s.val) * 4096 + n.val) / 131072 = b.val; omega
    | ⟨1, _⟩ => show ((b.val * 32 + s.val) * 4096 + n.val) / 4096 % 32 = s.val; omega
    | ⟨2, _⟩ => show ((b.val * 32 + s.val) * 4096 + n.val) / 64 % 64 = n.val / 64 % 64; omega
  have e2 : idx_main_v2 (idx_main_v4 (idx_main_v6 (ix3 b s n))) = ix3 b s (digit n.val) := by
    funext a
    apply Fin.ext
    match a with
    | ⟨0, _⟩ => show ((b.val * 32 + s.val) * 4096 + n.val) / 131072 = b.val; omega
    | ⟨1, _⟩ => show ((b.val * 32 + s.val) * 4096 + n.val) / 4096 % 32 = s.val; omega
    | ⟨2, _⟩ => show ((b.val * 32 + s.val) * 4096 + n.val) % 64 = n.val % 64; omega
  rw [val_main_v6_apply, val_main_v5_apply, val_main_v3_apply, val_main_v4_apply, val_main_v1_apply, val_main_v2_apply,
    e1, e2, neg_apply, neg_apply]
  rfl

/-- The second product, flattened, at (b, s, n): (entry n / 64 of the first product) * v (n % 64). -/
theorem level3_apply (x : FVec Ideal S8x32x64 .f32) (b : Fin 8) (s : Fin 32) (n : Fin 262144) :
    val_main_v12 (F := Ideal) x (ix3 b s n) = level3 (row x b s) n.val := by
  have hb := b.isLt
  have hs := s.isLt
  have hn := n.isLt
  have e1 : idx_main_v7 (idx_main_v9 (idx_main_v12 (ix3 b s n))) = ix3 b s (⟨n.val / 64, by omega⟩ : Fin 4096) := by
    funext a
    apply Fin.ext
    match a with
    | ⟨0, _⟩ => show ((b.val * 32 + s.val) * 262144 + n.val) / 8388608 = b.val; omega
    | ⟨1, _⟩ => show ((b.val * 32 + s.val) * 262144 + n.val) / 262144 % 32 = s.val; omega
    | ⟨2, _⟩ => show ((b.val * 32 + s.val) * 262144 + n.val) / 64 % 4096 = n.val / 64; omega
  have e2 : idx_main_v8 (idx_main_v10 (idx_main_v12 (ix3 b s n))) = ix3 b s (digit n.val) := by
    funext a
    apply Fin.ext
    match a with
    | ⟨0, _⟩ => show ((b.val * 32 + s.val) * 262144 + n.val) / 8388608 = b.val; omega
    | ⟨1, _⟩ => show ((b.val * 32 + s.val) * 262144 + n.val) / 262144 % 32 = s.val; omega
    | ⟨2, _⟩ => show ((b.val * 32 + s.val) * 262144 + n.val) % 64 = n.val % 64; omega
  rw [val_main_v12_apply, val_main_v11_apply, val_main_v9_apply, val_main_v10_apply, val_main_v7_apply, val_main_v8_apply,
    e1, e2, level2_apply, neg_apply]
  rfl

/-- THE REFERENCE'S RESULT is the features of every negated row: the three levels joined along the last axis, each read
    where its span holds the position. -/
theorem result_eq (x : FVec Ideal S8x32x64 .f32) : val_main_v13 (F := Ideal) x = Signature.ofArray x := by
  funext i
  obtain ⟨b, s, j, rfl⟩ : ∃ (b : Fin 8) (s : Fin 32) (j : Fin 266304), i = ix3 b s j := ⟨i 0, i 1, i 2, eq_ix3 i⟩
  have hj := j.isLt
  show _ = features (row x b s) j.val
  unfold val_main_v13
  have key := concatenate_apply_piece (t := S8x32x266304) (2 : Fin 3) [⟨S8x32x64, val_main_v0 (F := Ideal) x⟩, ⟨S8x32x4096, val_main_v6 (F := Ideal) x⟩,
    ⟨S8x32x262144, val_main_v12 (F := Ideal) x⟩] concatenates_S8x32x64_S8x32x4096_S8x32x262144_S8x32x266304_d2 (ix3 b s j)
  by_cases h1 : j.val < 64
  · rw [features_level1 _ h1]
    refine (key 0 (by simp) S8x32x64 (val_main_v0 (F := Ideal) x) rfl rfl 0 rfl
      (ix3 b s ⟨j.val, h1⟩) (fun a ha => ?_) ?_).trans ?_
    · match a, ha with
      | ⟨0, _⟩, _ => rfl
      | ⟨1, _⟩, _ => rfl
      | ⟨2, _⟩, ha => exact absurd rfl ha
    · show 0 + j.val = j.val
      omega
    · rw [neg_apply]
      exact congrArg _ (Fin.ext (Nat.mod_eq_of_lt h1).symm)
  · by_cases h2 : j.val < 4160
    · rw [features_level2 _ (by omega) h2]
      refine (key 1 (by simp) S8x32x4096 (val_main_v6 (F := Ideal) x) rfl rfl 64 rfl
        (ix3 b s ⟨j.val - 64, by omega⟩) (fun a ha => ?_) ?_).trans ?_
      · match a, ha with
        | ⟨0, _⟩, _ => rfl
        | ⟨1, _⟩, _ => rfl
        | ⟨2, _⟩, ha => exact absurd rfl ha
      · show 64 + (j.val - 64) = j.val
        omega
      · exact level2_apply x b s _
    · rw [features_level3 _ (by omega)]
      refine (key 2 (by simp) S8x32x262144 (val_main_v12 (F := Ideal) x) rfl rfl 4160 rfl
        (ix3 b s ⟨j.val - 4160, by omega⟩) (fun a ha => ?_) ?_).trans ?_
      · match a, ha with
        | ⟨0, _⟩, _ => rfl
        | ⟨1, _⟩, _ => rfl
        | ⟨2, _⟩, ha => exact absurd rfl ha
      · show 4160 + (j.val - 4160) = j.val
        omega
      · exact level3_apply x b s _

end Cert.ReferenceIdeal.Rows

end
-- ==== Proof.lean ====
/-
  The certificate of a kernel that writes, for every row v = -x[b, s, ·] of an [8, 32, 64] array, the row of signature
  features of v — the 64 entries of v, the 4096 products v i * v j and the 262144 products (v i * v j) * v k, side by
  side — against a reference that forms the same two outer products on the whole array and concatenates them.
  At the exact instance both results are ONE function of the argument, Signature.ofArray: entry (b, s, j) is the feature
  at position j of the negated row (b, s). No algebraic law is needed beyond 0 - x = -x: both programs multiply in the
  same order, (v i * v j) * v k, so the precondition (finite inputs) is never opened.
  The kernel side: each of the 16 grid points fills its [1, 16, 266304] output block by 34 stores along the last axis
  whose boundaries are moved off the boundaries of the three levels (every store but the first starts at a multiple
  of 128); each stored value is a window of the rows' feature sequences, stored where the window starts
  (KernelRows, KernelBlock), so the block is the features of the point's 16 rows, and the 16 blocks cover the result
  (KernelValue). The reference side: its operations read at an index (ReferenceRows). The three frames are the
  programs' runs with the results dropped; the idealization rewrote nothing.
-/
import proofs.«102466_j60258391163408_2_alg».proof.Defs
import proofs.«102466_j60258391163408_2_alg».proof.Proof.Gen.Kernel
import proofs.«102466_j60258391163408_2_alg».proof.Proof.Gen.KernelIdeal
import proofs.«102466_j60258391163408_2_alg».proof.Proof.Gen.ReferenceIdeal
import proofs.«102466_j60258391163408_2_alg».proof.Proof.Gen.Pre_finite_inputs
import proofs.«102466_j60258391163408_2_alg».proof.Proof.Gen.ReferenceIdeal.Run
import proofs.«102466_j60258391163408_2_alg».proof.Proof.Gen.ReferenceIdeal.Read
import proofs.«102466_j60258391163408_2_alg».proof.Proof.KernelFrame
import proofs.«102466_j60258391163408_2_alg».proof.Proof.KernelIdealFrame
import proofs.«102466_j60258391163408_2_alg».proof.Proof.KernelValue
import proofs.«102466_j60258391163408_2_alg».proof.Proof.ReferenceRows
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.GenP.frame m ρ

/-- So does the kernel read at the exact instance. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the argument both programs end with the features of the argument's negated rows. -/
theorem algebraic : Cert.algebraic_KernelIdeal_ReferenceIdeal := by
  intro m ρ m' ρ' _ hagree
  refine ⟨fun c => Cert.Signature.ofArray (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Rows.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
